-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x28x28 : Shape := ⟨3, ![8192, 28, 28]⟩
abbrev S8x784 : Shape := ⟨2, ![8, 784]⟩
abbrev S_ : Shape := ⟨0, ![]⟩

class Facts : Prop where
  bcast_S_S8192x28x28 : S_.BroadcastsInDim S8192x28x28 (![] : Fin 0 → Fin S8192x28x28.rank)
  reducesTo_S8192x28x28_S_d0_1_2 : S8192x28x28.ReducesTo [0, 1, 2] S_
  h_S_ : 0 < S_.numel
  bcast_S_S8x784 : S_.BroadcastsInDim S8x784 (![] : Fin 0 → Fin S8x784.rank)
  reducesTo_S8x784_S_d0_1 : S8x784.ReducesTo [0, 1] S_

variable [Facts]

def fn {F : FTy → Type} [FloatOps F] (main_arg0 : FVec F S8192x28x28 .f32) (main_arg1 : FVec F S8x784 .f32) : IVec S_ 1 :=
  let main_v0 : FVec F S8192x28x28 .f32 := Host.absf main_arg0
  let main_cst : FVec F S_ .f32 := constant S_ .f32 0x7F800000#32
  let main_v1 : FVec F S8192x28x28 .f32 := broadcastInDim S8192x28x28 ![] bcast_S_S8192x28x28 main_cst
  let main_v2 : IVec S8192x28x28 1 := cmpf .olt main_v0 main_v1
  let main_c : IVec S_ 1 := constantI S_ 1 1#1
  let main_v3 : IVec S_ 1 := (fun x v => Host.reduce IntOp.andi x v reducesTo_S8192x28x28_S_d0_1_2 h_S_) main_v2 main_c
  let main_v4 : FVec F S8x784 .f32 := Host.absf main_arg1
  let main_cst_0 : FVec F S_ .f32 := constant S_ .f32 0x7F800000#32
  let main_v5 : FVec F S8x784 .f32 := broadcastInDim S8x784 ![] bcast_S_S8x784 main_cst_0
  let main_v6 : IVec S8x784 1 := cmpf .olt main_v4 main_v5
  let main_c_1 : IVec S_ 1 := constantI S_ 1 1#1
  let main_v7 : IVec S_ 1 := (fun x v => Host.reduce IntOp.andi x v reducesTo_S8x784_S_d0_1 h_S_) main_v6 main_c_1
  let main_v8 : IVec S_ 1 := andi main_v3 main_v7
  main_v8
-- ==== Kernel.lean ====
abbrev S8192x28x28 : Shape := ⟨3, ![8192, 28, 28]⟩
abbrev S8x784 : Shape := ⟨2, ![8, 784]⟩
abbrev S8192x784 : Shape := ⟨2, ![8192, 784]⟩
abbrev S784x8192 : Shape := ⟨2, ![784, 8192]⟩
abbrev S8x8192 : Shape := ⟨2, ![8, 8192]⟩
abbrev S5x8192 : Shape := ⟨2, ![5, 8192]⟩
abbrev S8192x5 : Shape := ⟨2, ![8192, 5]⟩
abbrev S784x2048 : Shape := ⟨2, ![784, 2048]⟩
abbrev S8x2048 : Shape := ⟨2, ![8, 2048]⟩
abbrev S1x784 : Shape := ⟨2, ![1, 784]⟩
abbrev S784 : Shape := ⟨1, ![784]⟩
abbrev S784x1 : Shape := ⟨2, ![784, 1]⟩
abbrev S2048 : Shape := ⟨1, ![2048]⟩
abbrev S1x2048 : Shape := ⟨2, ![1, 2048]⟩
abbrev S3x2048 : Shape := ⟨2, ![3, 2048]⟩

abbrev nBuf : Space → Nat
  | .hbm => 10
  | .vmem => 7
  | .smem => 0
  | _ => 0

abbrev bufTy : (tb : Table) → Fin (tcTables nBuf tb) → BufTy
  | .hbm, ⟨0, _⟩ => ⟨S8192x28x28, .f32⟩
  | .hbm, ⟨1, _⟩ => ⟨S8x784, .f32⟩
  | .hbm, ⟨2, _⟩ => ⟨S8192x784, .f32⟩
  | .hbm, ⟨3, _⟩ => ⟨S784x8192, .f32⟩
  | .hbm, ⟨4, _⟩ => ⟨S8x8192, .f32⟩
  | .hbm, ⟨5, _⟩ => ⟨S8x8192, .f32⟩
  | .hbm, ⟨6, _⟩ => ⟨S5x8192, .f32⟩
  | .hbm, ⟨7, _⟩ => ⟨S8192x5, .f32⟩
  | .hbm, ⟨8, _⟩ => ⟨S5x8192, .f32⟩
  | .hbm, ⟨9, _⟩ => ⟨S8192x5, .f32⟩
  | .local _ .vmem, ⟨0, _⟩ => ⟨S784x2048, .f32⟩
  | .local _ .vmem, ⟨1, _⟩ => ⟨S784x2048, .f32⟩
  | .local _ .vmem, ⟨2, _⟩ => ⟨S8x784, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | _, _ => ⟨S8192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v3 : Ref sig .tc := ⟨.hbm, 6, rfl⟩
abbrev main_v0_1 : Ref sig .tc := ⟨.hbm, 7, rfl⟩
abbrev main_call0_v5 : Ref sig .tc := ⟨.hbm, 8, rfl⟩
abbrev main_v0_0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S784x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x28x28_S8192x784 : S8192x28x28.ShapeCasts S8192x784
  transposes_S8192x784_S784x8192_1_0 : S8192x784.Transposes [1, 0] S784x8192
  slices_S8x8192_S5x8192_0_0 : S8x8192.Slices ![0, 0] S5x8192
  transposes_S5x8192_S8192x5_1_0 : S5x8192.Transposes [1, 0] S8192x5
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S8x784_S8x784_0_0 : ∀ a, (![0, 0] : Fin 2 → Nat) a + S8x784.size a ≤ S8x784.size a
  h_S8x784 : 0 < S8x784.numel
  slices_S8x784_o0_0_S1x784 : S8x784.Slices ![0, 0] S1x784
  shapeCasts_S1x784_S784 : S1x784.ShapeCasts S784
  shapeCasts_S784_S784x1 : S784.ShapeCasts S784x1
  broadcasts_S784x1_S784x2048 : S784x1.Broadcasts S784x2048
  reduces_S784x2048_S2048 : S784x2048.Reduces [0] S2048
  shapeCasts_S2048_S1x2048 : S2048.ShapeCasts S1x2048
  slices_S8x784_o1_0_S1x784 : S8x784.Slices ![1, 0] S1x784
  slices_S8x784_o2_0_S1x784 : S8x784.Slices ![2, 0] S1x784
  slices_S8x784_o3_0_S1x784 : S8x784.Slices ![3, 0] S1x784
  slices_S8x784_o4_0_S1x784 : S8x784.Slices ![4, 0] S1x784
  concatenates_S1x2048_S1x2048_S1x2048_S1x2048_S1x2048_S3x2048_S8x2048_d0 : Shape.Concatenates [S1x2048, S1x2048, S1x2048, S1x2048, S1x2048, S3x2048] S8x2048 0
  inb_S8x2048_S8x2048_0_0 : ∀ a, (![0, 0] : Fin 2 → Nat) a + S8x2048.size a ≤ S8x2048.size a
  h_S8x2048 : 0 < S8x2048.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x2048.size a ≤ S784x8192.size a
  hwx0_0 : ∀ i : grid0.Coords, EltTy.bits .f32 = 32 ∨ (Rect.block (s := S784x8192) S784x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x784.size a ≤ S8x784.size a
  hwx0_1 : ∀ i : grid0.Coords, EltTy.bits .f32 = 32 ∨ (Rect.block (s := S8x784) S8x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x8192.size a
  hwx0_2 : ∀ i : grid0.Coords, EltTy.bits .f32 = 32 ∨ (Rect.block (s := S8x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S8x8192.size a
  hwx0_3 : ∀ i : grid0.Coords, EltTy.bits .f32 = 32 ∨ (Rect.block (s := S8x8192) S8x2048.size (cc0_transform_3 i) (hinb0_3 i)).WholeWords (EltTy.packing .f32)

variable [Facts₀]

abbrev win0_0 : Pipeline.Window sig grid0 :=
  Pipeline.Window.ofSpec (Memref.whole main_call0_v1) S784x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S8x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x28x28 : Shape := ⟨3, ![8192, 28, 28]⟩
abbrev S8x784 : Shape := ⟨2, ![8, 784]⟩
abbrev S8192x1x784 : Shape := ⟨3, ![8192, 1, 784]⟩
abbrev S8192x8x128 : Shape := ⟨3, ![8192, 8, 128]⟩
abbrev S8192x5x1 : Shape := ⟨3, ![8192, 5, 1]⟩
abbrev S8192x5 : Shape := ⟨2, ![8192, 5]⟩
abbrev S_ : Shape := ⟨0, ![]⟩
abbrev S1x1x784 : Shape := ⟨3, ![1, 1, 784]⟩
abbrev S1x8x128 : Shape := ⟨3, ![1, 8, 128]⟩
abbrev S1x784 : Shape := ⟨2, ![1, 784]⟩
abbrev S8 : Shape := ⟨1, ![8]⟩
abbrev S8x1 : Shape := ⟨2, ![8, 1]⟩
abbrev S8x128 : Shape := ⟨2, ![8, 128]⟩

abbrev nBuf : Space → Nat
  | .hbm => 13
  | .vmem => 5
  | .smem => 0
  | _ => 0

abbrev bufTy : (tb : Table) → Fin (tcTables nBuf tb) → BufTy
  | .hbm, ⟨0, _⟩ => ⟨S8192x28x28, .f32⟩
  | .hbm, ⟨1, _⟩ => ⟨S8x784, .f32⟩
  | .hbm, ⟨2, _⟩ => ⟨S8192x1x784, .f32⟩
  | .hbm, ⟨3, _⟩ => ⟨S8192x8x128, .f32⟩
  | .hbm, ⟨4, _⟩ => ⟨S8192x5x1, .f32⟩
  | .hbm, ⟨5, _⟩ => ⟨S8192x5, .f32⟩
  | .hbm, ⟨6, _⟩ => ⟨S_, .f32⟩
  | .hbm, ⟨7, _⟩ => ⟨S8192x5, .f32⟩
  | .hbm, ⟨8, _⟩ => ⟨S8192x5, .f32⟩
  | .hbm, ⟨9, _⟩ => ⟨S_, .f32⟩
  | .hbm, ⟨10, _⟩ => ⟨S8192x5, .f32⟩
  | .hbm, ⟨11, _⟩ => ⟨S8192x5, .i1⟩
  | .hbm, ⟨12, _⟩ => ⟨S8192x5, .f32⟩
  | .local _ .vmem, ⟨0, _⟩ => ⟨S1x1x784, .f32⟩
  | .local _ .vmem, ⟨1, _⟩ => ⟨S1x1x784, .f32⟩
  | .local _ .vmem, ⟨2, _⟩ => ⟨S8x784, .f32⟩
  | .local _ .vmem, ⟨3, _⟩ => ⟨S1x8x128, .f32⟩
  | .local _ .vmem, ⟨4, _⟩ => ⟨S1x8x128, .f32⟩
  | _, _ => ⟨S8192x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_1 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_v0_0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x28x28_S8192x1x784 : S8192x28x28.ShapeCasts S8192x1x784
  slices_S8192x8x128_S8192x5x1_0_0_0 : S8192x8x128.Slices ![0, 0, 0] S8192x5x1
  shapeCasts_S8192x5x1_S8192x5 : S8192x5x1.ShapeCasts S8192x5
  bcast_S_S8192x5 : S_.BroadcastsInDim S8192x5 (![] : Fin 0 → Fin S8192x5.rank)
  inb_S1x1x784_S1x1x784_0_0_0 : ∀ a, (![0, 0, 0] : Fin 3 → Nat) a + S1x1x784.size a ≤ S1x1x784.size a
  h_S1x1x784 : 0 < S1x1x784.numel
  shapeCasts_S1x1x784_S1x784 : S1x1x784.ShapeCasts S1x784
  inb_S8x784_S8x784_0_0 : ∀ a, (![0, 0] : Fin 2 → Nat) a + S8x784.size a ≤ S8x784.size a
  h_S8x784 : 0 < S8x784.numel
  broadcasts_S1x784_S8x784 : S1x784.Broadcasts S8x784
  reduces_S8x784_S8 : S8x784.Reduces [1] S8
  shapeCasts_S8_S8x1 : S8.ShapeCasts S8x1
  shapeCasts_S8x1_S8x1 : S8x1.ShapeCasts S8x1
  broadcasts_S8x1_S8x128 : S8x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x784.size a ≤ S8192x1x784.size a
  hwx0_0 : ∀ i : grid0.Coords, EltTy.bits .f32 = 32 ∨ (Rect.block (s := S8192x1x784) S1x1x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x784.size a ≤ S8x784.size a
  hwx0_1 : ∀ i : grid0.Coords, EltTy.bits .f32 = 32 ∨ (Rect.block (s := S8x784) S8x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8192x8x128.size a
  hwx0_2 : ∀ i : grid0.Coords, EltTy.bits .f32 = 32 ∨ (Rect.block (s := S8192x8x128) S1x8x128.size (cc0_transform_2 i) (hinb0_2 i)).WholeWords (EltTy.packing .f32)

variable [Facts₀]

abbrev win0_0 : Pipeline.Window sig grid0 :=
  Pipeline.Window.ofSpec (Memref.whole main_call0_v0) S1x1x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibFirstAxisSum.lean ====
/-
  A sum along the first axis, at the ideal instance.

  On the extended reals a vector reduction by addition along the first axis of an `[a, b]` array, started from the neutral
  accumulator, is at column `q` the sum over `d` of the entries `(d, q)`: a sum down the rows (the companion, for the first
  axis, of the row sum along the second axis).
-/
import Idealize.ShloMosaic.Lib.ValueIdx
import Idealize.ShloMosaic.PureOps.Ideal.Laws

noncomputable section

namespace Cert.LibFirstAxisSum

open Idealize.ShloMosaic Idealize.ShloMosaic.ValueIdx

/-- A vector reduction by addition along the first axis of an `[a, b]` array, at column `q`: the sum of that column. -/
theorem multiReduction_add_cols_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (q : Fin b) : multiReduction .add [0] ⟨1, ![b]⟩ src acc h hφ hacc (ix1 q) = ∑ d : Fin a, src (ix2 d q) := by
  refine (Ideal.multiReduction_add_single src acc h hφ hacc (ix1 q)).trans ?_
  refine Finset.sum_congr rfl fun d _ => congrArg src ?_
  funext ax; apply Fin.ext
  match ax with
  | ⟨0, _⟩ => rfl
  | ⟨1, _⟩ => rfl

end Cert.LibFirstAxisSum

end
-- ==== Proof.Spec.lean ====
/-
  The common value of the two programs, on the extended reals.

  Each sample is a 28 x 28 image `x(b, ·, ·)` read row-major as 784 pixels; each of the eight weight rows `w(j, ·)` (the last
  three are padding) has 784 entries. The current of neuron `j` on sample `b` is the inner product
  `cur(b, j) = ∑ k, pixel(b, k) · w(j, k)`, and the neuron fires, `1` or `0`, when `cur / 2 ≥ 0.8` (the two constants kept as the
  float words both programs print). The two results are the arrays of the first five neurons' firing and current, `[8192, 5]`.

  One program sums `pixel · weight`, the other `weight · pixel`; products commute on the extended reals (`cur_comm`).
  One program turns the comparison's bit into a float through a 32-bit signed integer, the other reads the bit unsigned: a bit
  zero-extended to 32 bits is non-negative, so the two readings agree (`bit_signed`).
-/
import Idealize.ShloMosaic.PureOps.Ideal.Laws
import Idealize.ShloMosaic.Lib.ValueIdx

noncomputable section

namespace Cert.Spec

open Idealize.ShloMosaic Idealize.ShloMosaic.ValueIdx

/-- Pixel `k` of sample `b`: the image read row by row. -/
def pix (x : (⟨3, ![8192, 28, 28]⟩ : Shape).Idx → EReal) (b : Fin 8192) (k : Fin 784) : EReal :=
  x (ix3 b ⟨k.val / 28, by have := k.isLt; omega⟩ ⟨k.val % 28, Nat.mod_lt _ (by decide)⟩)

/-- The current of neuron `j` on sample `b`: the inner product of the sample's pixels with the neuron's weights. -/
def cur (x : (⟨3, ![8192, 28, 28]⟩ : Shape).Idx → EReal) (w : (⟨2, ![8, 784]⟩ : Shape).Idx → EReal) (b : Fin 8192) (j : Fin 8) : EReal :=
  ∑ k : Fin 784, pix x b k * w (ix2 j k)

/-- The same inner product with each product written weight first. -/
theorem cur_comm (x : (⟨3, ![8192, 28, 28]⟩ : Shape).Idx → EReal) (w : (⟨2, ![8, 784]⟩ : Shape).Idx → EReal) (b : Fin 8192) (j : Fin 8) :
    ∑ k : Fin 784, w (ix2 j k) * pix x b k = cur x w b j :=
  Finset.sum_congr rfl fun _ _ => mul_comm _ _

/-- Whether a current fires: `1` when half of it reaches the threshold, else `0`. -/
def fire (v : EReal) : EReal :=
  (((Ideal.cmp .oge (Ideal.div v (Ideal.ofBits .f32 0x40000000#32)) (Ideal.ofBits .f32 0x3F4CCCCD#32)).toNat : ℝ) : EReal)

/-- A bit zero-extended to 32 bits reads the same signed as the bit reads unsigned. -/
theorem bit_signed : ∀ b : BitVec 1, (b.setWidth 32).toInt = (b.toNat : ℤ) := by decide

/-- The currents of the five neurons, sample by sample. -/
def curArr (x : (⟨3, ![8192, 28, 28]⟩ : Shape).Idx → EReal) (w : (⟨2, ![8, 784]⟩ : Shape).Idx → EReal) :
    (⟨2, ![8192, 5]⟩ : Shape).Idx → EReal :=
  fun i => cur x w (i 0) (Fin.castLE (by decide) (i 1))

/-- Their firing, sample by sample. -/
def spkArr (x : (⟨3, ![8192, 28, 28]⟩ : Shape).Idx → EReal) (w : (⟨2, ![8, 784]⟩ : Shape).Idx → EReal) :
    (⟨2, ![8192, 5]⟩ : Shape).Idx → EReal :=
  fun i => fire (cur x w (i 0) (Fin.castLE (by decide) (i 1)))

end Cert.Spec

end
-- ==== Proof.KPayload.lean ====
/-
  The kernel body's two stored values, read at an index on the extended reals.

  The body holds a block `xt` of 784 pixel rows by 2048 samples and the eight weight rows `w`. For each of the first five
  neurons `j` it takes weight row `j` as a column, spreads it over the 2048 samples, multiplies it into `xt` and sums down the
  784 rows: entry `l` of that sum is `∑ k, xt(k, l) · w(j, k)`. The five sums are stacked over three rows of zeros. So the
  first stored value reads, at `(j, l)`, that inner product when `j < 5` and zero otherwise; the second reads, at `(j, l)`,
  whether half of the first reaches the threshold, the comparison's bit widened to 32 bits and read as a signed integer.
-/
import proofs.«164304_g2000104130142098_pallasbulk_149_22_alg».proof.Proof.Gen.KernelIdeal.Skeleton
import proofs.«164304_g2000104130142098_pallasbulk_149_22_alg».proof.Proof.LibColumnLayout
import proofs.«164304_g2000104130142098_pallasbulk_149_22_alg».proof.Proof.LibFirstAxisSum
import proofs.«164304_g2000104130142098_pallasbulk_149_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.LibColumnLayout Cert.LibFirstAxisSum

/-- One neuron's row of the first stored value: weight row `o` taken as a column, spread over the samples, multiplied into
    the block and summed down the pixel rows, reads at sample `l` the inner product of the block's column `l` with that weight row. -/
theorem row_apply (x0 : FVec Ideal S784x2048 .f32) (x1 : FVec Ideal S8x784 .f32) (o : ℕ)
    (hs : S8x784.Slices ![o, 0] S1x784) (h1 : S1x784.ShapeCasts S784) (h2 : S784.ShapeCasts S784x1)
    (hb : S784x1.Broadcasts S784x2048) (hr : S784x2048.Reduces [0] S2048) (hφ : FKind.Formats .f32)
    (hacc : (0x00000000#32 : BitVec 32) = FKind.add.neutral .f32 hφ) (h3 : S2048.ShapeCasts S1x2048)
    (j : Fin 8) (hj : j.val = o) (u : Fin 1) (l : Fin 2048) :
    shapeCast S1x2048 (multiReduction .add [0] S2048 (mulf x0 (broadcastTo S784x2048 (shapeCast S784x1 (shapeCast S784
      (extractStridedSlice S1x784 ![o, 0] x1 hs) h1) h2) hb)) 0x00000000#32 hr hφ hacc) h3 (ix2 u l)
    = ∑ k : Fin 784, x0 (ix2 k l) * x1 (ix2 j k) := by
  rw [shapeCast_a_1a_apply, multiReduction_add_cols_apply]
  refine Finset.sum_congr rfl fun k _ => ?_
  rw [mulf_apply, broadcastTo_a1_ab_apply, shapeCast_a_a1_apply, shapeCast_1a_a_apply,
    slice2_axis0_apply o x1 hs 0 k j (by simp only [Fin.val_zero, Nat.add_zero]; exact hj)]

/-- Five rows stacked over a block of three rows read, at `(j, l)`, row `j` at `l` for `j < 5`, and the block at `(j - 5, l)`
    below them. -/
theorem stack_apply {α : Type} (r0 r1 r2 r3 r4 : S1x2048.Idx → α) (z : S3x2048.Idx → α)
    (h : Shape.Concatenates [S1x2048, S1x2048, S1x2048, S1x2048, S1x2048, S3x2048] S8x2048 0) (l : Fin 2048) :
    let c := concatenate S8x2048 0 [⟨S1x2048, r0⟩, ⟨S1x2048, r1⟩, ⟨S1x2048, r2⟩, ⟨S1x2048, r3⟩, ⟨S1x2048, r4⟩, ⟨S3x2048, z⟩] h
    c (ix2 0 l) = r0 (ix2 0 l) ∧ c (ix2 1 l) = r1 (ix2 0 l) ∧ c (ix2 2 l) = r2 (ix2 0 l) ∧ c (ix2 3 l) = r3 (ix2 0 l)
      ∧ c (ix2 4 l) = r4 (ix2 0 l) ∧ c (ix2 5 l) = z (ix2 0 l) ∧ c (ix2 6 l) = z (ix2 1 l) ∧ c (ix2 7 l) = z (ix2 2 l) := by
  refine ⟨?_, ?_, ?_, ?_, ?_, ?_, ?_, ?_⟩
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 0 (by simp) S1x2048 r0 rfl rfl 0 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 1 (by simp) S1x2048 r1 rfl rfl 1 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 2 (by simp) S1x2048 r2 rfl rfl 2 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 3 (by simp) S1x2048 r3 rfl rfl 3 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 4 (by simp) S1x2048 r4 rfl rfl 4 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 5 (by simp) S3x2048 z rfl rfl 5 rfl (ix2 0 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 5 (by simp) S3x2048 z rfl rfl 5 rfl (ix2 1 l) (fun b hb => by match b with | ⟨0, _⟩ => exact absurd rfl hb | ⟨1, _⟩ => rfl) rfl
  · exact concatenate_apply_piece (t := S8x2048) 0 [⟨S1x2048, r0⟩, ⟨S1x2048, r1⟩, ⟨S1x2048, r2⟩, ⟨S1x2048, r3⟩, ⟨S1x2048, r4⟩, ⟨S3x2048, z⟩] h _ 5 (by simp) S3x2048 z rfl rfl 5 rfl (ix2 2 l) (fun b hb => by match b with | ⟨0, _⟩ => exact absurd rfl hb | ⟨1, _⟩ => rfl) rfl

/-- The first stored value at `(j, l)`: for the five neurons the inner product of the block's column `l` with weight row `j`,
    and zero on the three padding rows — the row of the stack that holds `j`. -/
theorem pay2_apply (x0 : Vec Ideal S784x2048 .f32) (x1 : Vec Ideal S8x784 .f32) (j : Fin 8) (l : Fin 2048) :
    k0_pay2 (F := Ideal) x0 x1 (ix2 j l)
      = if j.val < 5 then ∑ k : Fin 784, x0 (ix2 k l) * x1 (ix2 j k) else Ideal.ofBits .f32 0x00000000#32 := by
  unfold k0_pay2
  dsimp only
  simp only [shapeCast_self]
  match j with
  | ⟨0, _⟩ => rw [if_pos (by simp)]; exact Eq.trans (stack_apply _ _ _ _ _ _ concatenates_S1x2048_S1x2048_S1x2048_S1x2048_S1x2048_S3x2048_S8x2048_d0 l).1 (row_apply x0 x1 0 _ _ _ _ _ _ _ _ ⟨0, by decide⟩ rfl 0 l)
  | ⟨1, _⟩ => rw [if_pos (by simp)]; exact Eq.trans (stack_apply _ _ _ _ _ _ concatenates_S1x2048_S1x2048_S1x2048_S1x2048_S1x2048_S3x2048_S8x2048_d0 l).2.1 (row_apply x0 x1 1 _ _ _ _ _ _ _ _ ⟨1, by decide⟩ rfl 0 l)
  | ⟨2, _⟩ => rw [if_pos (by simp)]; exact Eq.trans (stack_apply _ _ _ _ _ _ concatenates_S1x2048_S1x2048_S1x2048_S1x2048_S1x2048_S3x2048_S8x2048_d0 l).2.2.1 (row_apply x0 x1 2 _ _ _ _ _ _ _ _ ⟨2, by decide⟩ rfl 0 l)
  | ⟨3, _⟩ => rw [if_pos (by simp)]; exact Eq.trans (stack_apply _ _ _ _ _ _ concatenates_S1x2048_S1x2048_S1x2048_S1x2048_S1x2048_S3x2048_S8x2048_d0 l).2.2.2.1 (row_apply x0 x1 3 _ _ _ _ _ _ _ _ ⟨3, by decide⟩ rfl 0 l)
  | ⟨4, _⟩ => rw [if_pos (by simp)]; exact Eq.trans (stack_apply _ _ _ _ _ _ concatenates_S1x2048_S1x2048_S1x2048_S1x2048_S1x2048_S3x2048_S8x2048_d0 l).2.2.2.2.1 (row_apply x0 x1 4 _ _ _ _ _ _ _ _ ⟨4, by decide⟩ rfl 0 l)
  | ⟨5, _⟩ => rw [if_neg (by simp)]; exact (stack_apply _ _ _ _ _ _ concatenates_S1x2048_S1x2048_S1x2048_S1x2048_S1x2048_S3x2048_S8x2048_d0 l).2.2.2.2.2.1
  | ⟨6, _⟩ => rw [if_neg (by simp)]; exact (stack_apply _ _ _ _ _ _ concatenates_S1x2048_S1x2048_S1x2048_S1x2048_S1x2048_S3x2048_S8x2048_d0 l).2.2.2.2.2.2.1
  | ⟨7, _⟩ => rw [if_neg (by simp)]; exact (stack_apply _ _ _ _ _ _ concatenates_S1x2048_S1x2048_S1x2048_S1x2048_S1x2048_S3x2048_S8x2048_d0 l).2.2.2.2.2.2.2

/-- The second stored value at `(j, l)`: whether the first stored value there fires — half of it compared with the threshold,
    the comparison's bit widened to 32 bits and read as a signed integer, which is the bit read unsigned. -/
theorem pay1_apply (x0 : Vec Ideal S784x2048 .f32) (x1 : Vec Ideal S8x784 .f32) (j : Fin 8) (l : Fin 2048) :
    k0_pay1 (F := Ideal) (k0_pay3 x0 x1) (k0_pay4 (F := Ideal)) (ix2 j l) = Cert.Spec.fire (k0_pay2 (F := Ideal) x0 x1 (ix2 j l)) := by
  unfold k0_pay1 k0_pay3 k0_pay4 Cert.Spec.fire
  refine Eq.trans (congrArg (fun z : ℤ => ((z : ℝ) : EReal)) (Cert.Spec.bit_signed (Ideal.cmp .oge
    (Ideal.div (k0_pay2 (F := Ideal) x0 x1 (ix2 j l)) (Ideal.ofBits .f32 0x40000000#32)) (Ideal.ofBits .f32 0x3F4CCCCD#32)))) ?_
  simp only [Int.cast_natCast]

end Cert.KernelIdeal.Hand

end
-- ==== Proof.KBlocks.lean ====
/-
  From the blocks the grid points write back to the two whole result arrays of the kernel's region.

  The region is handed the transposed pixels `XT` (784 pixel rows by 8192 samples) and the weights `W` (8 by 784). Point `t`
  of its four points reads the column block `t` of `XT` (samples `2048 t … 2048 t + 2047`) and all of `W`, and writes column
  block `t` of each result. Entry `(j, s)` of the first result is the inner product of column `s` of `XT` with weight row `j`
  (zero on the three padding rows), which depends on that column alone; so every block written back is the restriction of ONE
  function of `XT` and `W`, and the four column blocks cover the `[8, 8192]` array. The second result is, entry by entry,
  whether the first fires.
-/
import proofs.«164304_g2000104130142098_pallasbulk_149_22_alg».proof.Proof.Gen.KernelIdeal.Frame
import proofs.«164304_g2000104130142098_pallasbulk_149_22_alg».proof.Proof.KPayload
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The first result as one function of the transposed pixels and the weights: at `(j, s)` the inner product of sample `s`
    with weight row `j` for the five neurons, zero on the padding rows. -/
def curT (XT : S784x8192.Idx → EReal) (W : S8x784.Idx → EReal) : S8x8192.Idx → EReal := fun i =>
  if (i 0).val < 5 then ∑ k : Fin 784, XT (ix2 k (i 1)) * W (ix2 (i 0) k) else Ideal.ofBits .f32 0x00000000#32

/-- The second result: whether the first fires, entry by entry. -/
def spkT (XT : S784x8192.Idx → EReal) (W : S8x784.Idx → EReal) : S8x8192.Idx → EReal := fun i =>
  Cert.Spec.fire (curT XT W i)

/-- A point's first stored value is the restriction of `curT`: when the pixel block `x0` is column block `q` of `XT` and
    the weight block is `W`, its entry `y` is `curT` at the array index `i` under `y` in column block `q`. -/
theorem pay2_block (XT : S784x8192.Idx → EReal) (W : S8x784.Idx → EReal) (x0 : Vec Ideal S784x2048 .f32)
    (x1 : Vec Ideal S8x784 .f32) (q : ℕ)
    (h0 : ∀ (k : Fin 784) (l : Fin 2048) (i : S784x8192.Idx), (i 0).val = k.val → (i 1).val = q * 2048 + l.val → x0 (ix2 k l) = XT i)
    (h1 : ∀ z : S8x784.Idx, x1 z = W z) (y : S8x2048.Idx) (i : S8x8192.Idx) (hi0 : (i 0).val = (y 0).val)
    (hi1 : (i 1).val = q * 2048 + (y 1).val) :
    k0_pay2 (F := Ideal) x0 x1 y = curT XT W i := by
  obtain ⟨j, l, rfl⟩ : ∃ (j : Fin 8) (l : Fin 2048), y = ix2 j l := ⟨y 0, y 1, eq_ix2 y⟩
  have e0 : i 0 = j := Fin.ext hi0
  rw [pay2_apply]
  unfold curT
  rw [e0]
  refine if_congr Iff.rfl (Finset.sum_congr rfl fun k _ => ?_) rfl
  rw [h0 k l (ix2 k (i 1)) rfl hi1, h1]

/-- And its second stored value is the restriction of `spkT`. -/
theorem pay1_block (XT : S784x8192.Idx → EReal) (W : S8x784.Idx → EReal) (x0 : Vec Ideal S784x2048 .f32)
    (x1 : Vec Ideal S8x784 .f32) (q : ℕ)
    (h0 : ∀ (k : Fin 784) (l : Fin 2048) (i : S784x8192.Idx), (i 0).val = k.val → (i 1).val = q * 2048 + l.val → x0 (ix2 k l) = XT i)
    (h1 : ∀ z : S8x784.Idx, x1 z = W z) (y : S8x2048.Idx) (i : S8x8192.Idx) (hi0 : (i 0).val = (y 0).val)
    (hi1 : (i 1).val = q * 2048 + (y 1).val) :
    k0_pay1 (F := Ideal) (k0_pay3 x0 x1) (k0_pay4 (F := Ideal)) y = spkT XT W i := by
  obtain ⟨j, l, rfl⟩ : ∃ (j : Fin 8) (l : Fin 2048), y = ix2 j l := ⟨y 0, y 1, eq_ix2 y⟩
  rw [pay1_apply, pay2_block XT W x0 x1 q h0 h1 (ix2 j l) i hi0 hi1]
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps over the four points: the pixel window and both result windows sit at column block `t`, row
    block 0; the weight window at block (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The pixel block at point `t` is column block `t` of the transposed pixels as the region finds them. -/
theorem iblk0_apply (c : Dev nD) (t : Fin cfg0.N) (k : Fin 784) (l : Fin 2048) (i : S784x8192.Idx)
    (hi0 : (i 0).val = k.val) (hi1 : (i 1).val = t.val * 2048 + l.val) :
    (iblk m c 0 t : Vec Ideal S784x2048 .f32) (ix2 k l) = (V m c main_call0_v1 : S784x8192.Idx → EReal) i := by
  obtain ⟨e0, e1, -⟩ := idx_facts t
  unfold iblk
  show V m c main_call0_v1 (((cfg0.win 0).blk t).view.emb (ix2 k l)) = V m c main_call0_v1 i
  congr 1
  funext a; apply Fin.ext
  match a with
  | ⟨0, _⟩ => show win0_0.index t (0 : Fin 2) * 784 + 1 * k.val = (i 0).val; rw [e0, hi0]; omega
  | ⟨1, _⟩ => show win0_0.index t (1 : Fin 2) * 2048 + 1 * l.val = (i 1).val; rw [e1, hi1]; omega

/-- The weight block at every point is the whole weight array. -/
theorem iblk1_apply (c : Dev nD) (t : Fin cfg0.N) (z : S8x784.Idx) :
    (iblk m c 1 t : Vec Ideal S8x784 .f32) z = (V m c main_arg1 : S8x784.Idx → EReal) z := by
  obtain ⟨-, -, e0, e1, -⟩ := idx_facts t
  unfold iblk
  show V m c main_arg1 (((cfg0.win 1).blk t).view.emb z) = V m c main_arg1 z
  congr 1
  funext a; apply Fin.ext
  match a with
  | ⟨0, _⟩ => show win0_1.index t (0 : Fin 2) * 8 + 1 * (z 0).val = (z 0).val; rw [e0]; omega
  | ⟨1, _⟩ => show win0_1.index t (1 : Fin 2) * 784 + 1 * (z 1).val = (z 1).val; rw [e1]; omega

/-- What point `t` writes back to the first result is block `t` of `curT` of the region-entry arrays. -/
theorem flushed2_eq (c : Dev nD) (t : Fin cfg0.N) :
    (dats m 0 c).flushed 2 t = ((cfg0.win 2).blk t).view.read (Elt Ideal) (curT (V m c main_call0_v1) (V m c main_arg1)) := by
  show (cfg0.win 2).cut (grid0.coords t) ((dats m 0 c).after 2 t) = _
  rw [after0_2]
  unfold out0_2
  rw [View.canon_unit_zero hz]
  simp only [View.ld_unit_zero (S := S784x2048) hz, View.ld_unit_zero (S := S8x784) hz]
  obtain ⟨-, -, -, -, e0, e1, -⟩ := idx_facts t
  funext y
  refine pay2_block _ _ _ _ t.val (iblk0_apply m c t) (iblk1_apply m c t) y _ ?_ ?_
  · show win0_2.index t (0 : Fin 2) * 8 + 1 * (y 0).val = (y 0).val; rw [e0]; omega
  · show win0_2.index t (1 : Fin 2) * 2048 + 1 * (y 1).val = t.val * 2048 + (y 1).val; rw [e1]; omega

/-- What point `t` writes back to the second result is block `t` of `spkT`. -/
theorem flushed3_eq (c : Dev nD) (t : Fin cfg0.N) :
    (dats m 0 c).flushed 3 t = ((cfg0.win 3).blk t).view.read (Elt Ideal) (spkT (V m c main_call0_v1) (V m c main_arg1)) := by
  show (cfg0.win 3).cut (grid0.coords t) ((dats m 0 c).after 3 t) = _
  rw [after0_3]
  unfold out0_3
  rw [View.canon_unit_zero hz]
  simp only [View.ld_unit_zero (S := S784x2048) hz, View.ld_unit_zero (S := S8x784) hz]
  obtain ⟨-, -, -, -, -, -, e0, e1⟩ := idx_facts t
  funext y
  refine pay1_block _ _ _ _ t.val (iblk0_apply m c t) (iblk1_apply m c t) y _ ?_ ?_
  · show win0_3.index t (0 : Fin 2) * 8 + 1 * (y 0).val = (y 0).val; rw [e0]; omega
  · show win0_3.index t (1 : Fin 2) * 2048 + 1 * (y 1).val = t.val * 2048 + (y 1).val; rw [e1]; omega

/-- An index of the first result is in point `t`'s block iff each coordinate is in the block's range on its axis. -/
theorem mem_blk2 (t : Fin cfg0.N) (i : S8x8192.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_call0_v2_0).slice (win0_2.rect t)).set ↔ _
  rw [View.set_slice_whole, Rect.mem_set_unit]
  exact Iff.rfl

/-- The same for the second result. -/
theorem mem_blk3 (t : Fin cfg0.N) (i : S8x8192.Idx) :
    i ∈ ((cfg0.win 3).blk t).view.set ↔ ∀ a : Fin 2, win0_3.index t a * S8x2048.size a ≤ (i a).val
      ∧ (i a).val < win0_3.index t a * S8x2048.size a + S8x2048.size a := by
  show i ∈ ((View.whole main_call0_v2_1).slice (win0_3.rect t)).set ↔ _
  rw [View.set_slice_whole, Rect.mem_set_unit]
  exact Iff.rfl

/-- Sample `s` lies in column block `s / 2048`: the four column blocks cover the first result. -/
theorem cover2 (i : S8x8192.Idx) : ∃ t : Fin cfg0.N, (cfg0.win 2).flush t = true ∧ i ∈ ((cfg0.win 2).blk t).view.set := by
  have hi0 : (i 0).val < 8 := (i 0).isLt
  have hi1 : (i 1).val < 8192 := (i 1).isLt
  have hN : cfg0.N = 4 := N_0
  have ht : (i 1).val / 2048 < cfg0.N := by rw [hN]; omega
  obtain ⟨-, -, -, -, e0, e1, -⟩ := idx_facts ⟨(i 1).val / 2048, ht⟩
  refine ⟨⟨(i 1).val / 2048, ht⟩, flush0_2 _, ?_⟩
  rw [mem_blk2]
  intro a
  match a with
  | ⟨0, _⟩ =>
    show win0_2.index ⟨(i 1).val / 2048, ht⟩ (0 : Fin 2) * 8 ≤ (i 0).val ∧ (i 0).val < win0_2.index ⟨(i 1).val / 2048, ht⟩ (0 : Fin 2) * 8 + 8
    rw [e0]; omega
  | ⟨1, _⟩ =>
    show win0_2.index ⟨(i 1).val / 2048, ht⟩ (1 : Fin 2) * 2048 ≤ (i 1).val ∧ (i 1).val < win0_2.index ⟨(i 1).val / 2048, ht⟩ (1 : Fin 2) * 2048 + 2048
    rw [e1]; show (i 1).val / 2048 * 2048 ≤ (i 1).val ∧ (i 1).val < (i 1).val / 2048 * 2048 + 2048; omega

/-- And the second. -/
theorem cover3 (i : S8x8192.Idx) : ∃ t : Fin cfg0.N, (cfg0.win 3).flush t = true ∧ i ∈ ((cfg0.win 3).blk t).view.set := by
  have hi0 : (i 0).val < 8 := (i 0).isLt
  have hi1 : (i 1).val < 8192 := (i 1).isLt
  have hN : cfg0.N = 4 := N_0
  have ht : (i 1).val / 2048 < cfg0.N := by rw [hN]; omega
  obtain ⟨-, -, -, -, -, -, e0, e1⟩ := idx_facts ⟨(i 1).val / 2048, ht⟩
  refine ⟨⟨(i 1).val / 2048, ht⟩, flush0_3 _, ?_⟩
  rw [mem_blk3]
  intro a
  match a with
  | ⟨0, _⟩ =>
    show win0_3.index ⟨(i 1).val / 2048, ht⟩ (0 : Fin 2) * 8 ≤ (i 0).val ∧ (i 0).val < win0_3.index ⟨(i 1).val / 2048, ht⟩ (0 : Fin 2) * 8 + 8
    rw [e0]; omega
  | ⟨1, _⟩ =>
    show win0_3.index ⟨(i 1).val / 2048, ht⟩ (1 : Fin 2) * 2048 ≤ (i 1).val ∧ (i 1).val < win0_3.index ⟨(i 1).val / 2048, ht⟩ (1 : Fin 2) * 2048 + 2048
    rw [e1]; show (i 1).val / 2048 * 2048 ≤ (i 1).val ∧ (i 1).val < (i 1).val / 2048 * 2048 + 2048; omega

/-- The first result array after the region: `curT` of the region-entry arrays. -/
theorem final2 (c : Dev nD) : (dats m 0 c).arrAt 2 cfg0.N = curT (V m c main_call0_v1) (V m c main_arg1) :=
  (dats m 0 c).arrAt_eq_of_cover 2 _ (fun t _ => flushed2_eq m c t) cover2

/-- The second result array after the region: `spkT` of the region-entry arrays. -/
theorem final3 (c : Dev nD) : (dats m 0 c).arrAt 3 cfg0.N = spkT (V m c main_call0_v1) (V m c main_arg1) :=
  (dats m 0 c).arrAt_eq_of_cover 3 _ (fun t _ => flushed3_eq m c t) cover3

end Cert.KernelIdeal.Hand

end
-- ==== Proof.KHost.lean ====
/-
  The host lines around the kernel's region, read at an index, and the run.

  Before the region the image array `x` is flattened to `[8192, 784]` (row-major: pixel `k` of sample `s` is `x(s, k / 28, k % 28)`)
  and transposed to `[784, 8192]`: entry `(k, s)` of what the region finds is pixel `k` of sample `s`. After the region each
  `[8, 8192]` result loses its three padding rows and is transposed to `[8192, 5]`: entry `(s, j)` of a final result is entry
  `(j, s)` of the region's. Put together, the final results are the currents and the firing of the specification.
-/
import proofs.«164304_g2000104130142098_pallasbulk_149_22_alg».proof.Proof.Gen.KernelIdeal.Frame
import proofs.«164304_g2000104130142098_pallasbulk_149_22_alg».proof.Proof.KBlocks
import Idealize.ShloMosaic.Lib.StableHlo.Run
import Idealize.ShloMosaic.Lib.ValueLayout

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The region finds the images flattened and transposed. -/
theorem V_xt (c : Dev nD) : (V m c main_call0_v1 : S784x8192.Idx → EReal) =
    transpose S784x8192 [1, 0] (shapeCast S8192x784 (m ((c : Thread nD τ).loc main_arg0) : S8192x28x28.Idx → EReal)
      shapeCasts_S8192x28x28_S8192x784) transposes_S8192x784_S784x8192_1_0 := by
  show StableHlo.after hostOps0 (fun b => m (c, b)) (Proc.devRef .tc main_call0_v1) = _
  after_results
  rfl

/-- Entry `(k, s)` of what the region finds is pixel `k` of sample `s`. -/
theorem xt_apply (c : Dev nD) (k : Fin 784) (s : Fin 8192) :
    (V m c main_call0_v1 : S784x8192.Idx → EReal) (ix2 k s) = Cert.Spec.pix (m ((c : Thread nD τ).loc main_arg0)) s k := by
  rw [V_xt, transpose_ix2_apply]
  unfold Cert.Spec.pix
  refine shapeCast_apply _ _ _ _ ?_
  show ((⟨3, ![8192, 28, 28]⟩ : Shape).rowMajor (ix3 s _ _)).val = ((⟨2, ![8192, 784]⟩ : Shape).rowMajor (ix2 s k)).val
  rw [Shape.rowMajor_val_three, Shape.rowMajor_val_two]
  show (s.val * 28 + k.val / 28) * 28 + k.val % 28 = s.val * 784 + k.val
  omega

/-- The currents the program returns: the region's first result without its padding rows, transposed. -/
theorem tail_cur (c : Dev nD) :
    (Pipeline.afterTail₀ cfgs (dats m) 0 (V0 m) [hostOps1] c main_v0_1 : S8192x5.Idx → EReal)
      = transpose S8192x5 [1, 0] (extractStridedSlice S5x8192 ![0, 0] (curT (V m c main_call0_v1) (V m c main_arg1))
          slices_S8x8192_S5x8192_0_0) transposes_S5x8192_S8192x5_1_0 := by
  unfold Pipeline.afterTail₀
  show StableHlo.after hostOps1 _ (Proc.devRef .tc main_v0_1) = _
  after_results
  have e : (Pipeline.withArrays (cfgs 0).spec c (V0 m c) (fun w => (dats m 0 c).arrAt w (cfgs 0).N)
      (Proc.devRef .tc main_call0_v2_0) : S8x8192.Idx → EReal) = curT (V m c main_call0_v1) (V m c main_arg1) :=
    (Pipeline.withArrays_arr spec0 launch0.win.arr_inj c _ _ 2).trans (final2 m c)
  exact congrArg (fun A : S8x8192.Idx → EReal => transpose S8192x5 [1, 0] (extractStridedSlice S5x8192 ![0, 0] A
    slices_S8x8192_S5x8192_0_0) transposes_S5x8192_S8192x5_1_0) e

/-- Their firing: the region's second result without its padding rows, transposed. -/
theorem tail_spk (c : Dev nD) :
    (Pipeline.afterTail₀ cfgs (dats m) 0 (V0 m) [hostOps1] c main_v0_0 : S8192x5.Idx → EReal)
      = transpose S8192x5 [1, 0] (extractStridedSlice S5x8192 ![0, 0] (spkT (V m c main_call0_v1) (V m c main_arg1))
          slices_S8x8192_S5x8192_0_0) transposes_S5x8192_S8192x5_1_0 := by
  unfold Pipeline.afterTail₀
  show StableHlo.after hostOps1 _ (Proc.devRef .tc main_v0_0) = _
  after_results
  have e : (Pipeline.withArrays (cfgs 0).spec c (V0 m c) (fun w => (dats m 0 c).arrAt w (cfgs 0).N)
      (Proc.devRef .tc main_call0_v2_1) : S8x8192.Idx → EReal) = spkT (V m c main_call0_v1) (V m c main_arg1) :=
    (Pipeline.withArrays_arr spec0 launch0.win.arr_inj c _ _ 3).trans (final3 m c)
  exact congrArg (fun A : S8x8192.Idx → EReal => transpose S8192x5 [1, 0] (extractStridedSlice S5x8192 ![0, 0] A
    slices_S8x8192_S5x8192_0_0) transposes_S5x8192_S8192x5_1_0) e

/-- Row `j < 5`, column `s` of the region's first result is the current of neuron `j` on sample `s`. -/
theorem curT_apply (c : Dev nD) (s : Fin 8192) (j : Fin 5) :
    curT (V m c main_call0_v1) (V m c main_arg1) (ix2 (Fin.castLE (by decide) j) s)
      = Cert.Spec.cur (m ((c : Thread nD τ).loc main_arg0)) (m ((c : Thread nD τ).loc main_arg1)) s (Fin.castLE (by decide) j) := by
  unfold curT Cert.Spec.cur
  refine (if_pos (show ((ix2 (Fin.castLE (by decide) j) s : S8x8192.Idx) 0).val < 5 from j.isLt)).trans ?_
  refine Finset.sum_congr rfl fun k _ => ?_
  exact congrArg₂ (· * ·) (xt_apply m c k s) (congrFun (V_main_arg1 m c) _)

/-- The currents the program returns are the specification's. -/
theorem result_cur (c : Dev nD) :
    (Pipeline.afterTail₀ cfgs (dats m) 0 (V0 m) [hostOps1] c main_v0_1 : S8192x5.Idx → EReal)
      = Cert.Spec.curArr (m ((c : Thread nD τ).loc main_arg0)) (m ((c : Thread nD τ).loc main_arg1)) := by
  rw [tail_cur]
  funext i
  obtain ⟨s, j, rfl⟩ : ∃ (s : Fin 8192) (j : Fin 5), i = ix2 s j := ⟨i 0, i 1, eq_ix2 i⟩
  rw [transpose_ix2_apply, slice2_axis0_apply 0 _ _ j s (Fin.castLE (by decide) j) (by simp), curT_apply]
  rfl

/-- The firing the program returns is the specification's. -/
theorem result_spk (c : Dev nD) :
    (Pipeline.afterTail₀ cfgs (dats m) 0 (V0 m) [hostOps1] c main_v0_0 : S8192x5.Idx → EReal)
      = Cert.Spec.spkArr (m ((c : Thread nD τ).loc main_arg0)) (m ((c : Thread nD τ).loc main_arg1)) := by
  rw [tail_spk]
  funext i
  obtain ⟨s, j, rfl⟩ : ∃ (s : Fin 8192) (j : Fin 5), i = ix2 s j := ⟨i 0, i 1, eq_ix2 i⟩
  rw [transpose_ix2_apply, slice2_axis0_apply 0 _ _ j s (Fin.castLE (by decide) j) (by simp)]
  show Cert.Spec.fire (curT (V m c main_call0_v1) (V m c main_arg1) (ix2 (Fin.castLE (by decide) j) s)) = _
  rw [curT_apply]
  rfl

/-- The run of the kernel's program, read: both results at the specification's arrays of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v0_0)
        = Cert.Spec.spkArr (m ((c.tc : Thread nD τ).loc main_arg0)) (m ((c.tc : Thread nD τ).loc main_arg1))
    ∧ r.2.mem ((c.tc : Thread nD τ).loc main_v0_1)
        = Cert.Spec.curArr (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans (result_spk m c),
     ((h c).2 main_v0_1 (Pipeline.mem_restRefs_of main_v0_1 (by decide) (by decide))).trans (result_cur m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩) (run_main m ρ)

end Cert.KernelIdeal.Hand

end
-- ==== Proof.RefHost.lean ====
/-
  The reference's host operations, read at an index.

  Before the region the image array [8192, 28, 28] is reshaped to [8192, 1, 784]: entry (b, 0, k) of the reshaped array is pixel k
  of sample b, the image read row by row.

  After the region the array [8192, 8, 128] of inner products is cut down to its first five rows and first lane, [8192, 5, 1], and
  the unit axis is dropped: entry (b, j) of the result is entry (b, j, 0) of the array. The firing array divides each such entry
  by the first constant, compares the quotient with the second, and turns the comparison's bit into a float: entry by entry it is
  the specification's firing function of the current.
-/
import proofs.«164304_g2000104130142098_pallasbulk_149_22_alg».proof.ReferenceIdeal
import proofs.«164304_g2000104130142098_pallasbulk_149_22_alg».proof.Proof.Spec
import Idealize.ShloMosaic.Lib.Pipeline.Value

noncomputable section

namespace Cert.ReferenceIdeal.Hand

open Idealize.ShloMosaic Idealize.ShloMosaic.ValueIdx
open Cert.ReferenceIdeal

/-- The images reshaped to rows of 784 pixels: entry (b, 0, k) is pixel k of sample b. -/
theorem rows_apply (X : S8192x28x28.Idx → EReal) (h : S8192x28x28.ShapeCasts S8192x1x784) (b : Fin 8192) (u : Fin 1) (k : Fin 784) :
    shapeCast S8192x1x784 X h (ix3 b u k) = Cert.Spec.pix X b k := by
  unfold Cert.Spec.pix
  refine shapeCast_apply X h (ix3 b u k) _ ?_
  have hu : u.val = 0 := by omega
  have hk : k.val < 784 := k.isLt
  rw [Shape.rowMajor_val_three, Shape.rowMajor_val_three]
  show (b.val * 28 + k.val / 28) * 28 + k.val % 28 = (b.val * 1 + u.val) * 784 + k.val
  rw [hu]; omega

/-- The first five rows and first lane of the array [8192, 8, 128], the unit axis dropped: entry (b, j) is entry (b, j, 0). -/
theorem firstLane_apply (A : S8192x8x128.Idx → EReal) (hs : S8192x8x128.Slices ![0, 0, 0] S8192x5x1) (hc : S8192x5x1.ShapeCasts S8192x5)
    (b : Fin 8192) (j : Fin 5) :
    shapeCast S8192x5 (extractStridedSlice S8192x5x1 ![0, 0, 0] A hs) hc (ix2 b j)
      = A (ix3 b (Fin.castLE (by decide : 5 ≤ 8) j) (0 : Fin 128)) := by
  refine (shapeCast_apply _ hc (ix2 b j) (ix3 b j (0 : Fin 1)) ?_).trans ?_
  · rw [Shape.rowMajor_val_three, Shape.rowMajor_val_two]
    show (b.val * 5 + j.val) * 1 + 0 = b.val * 5 + j.val
    omega
  · refine extractStridedSlice_apply _ A hs (ix3 b j (0 : Fin 1)) _ fun a => ?_
    match a with
    | ⟨0, _⟩ => show b.val = 0 + b.val; omega
    | ⟨1, _⟩ => show j.val = 0 + j.val; omega
    | ⟨2, _⟩ => show 0 = 0 + 0; rfl

/-- Halving, comparing with the threshold and reading the bit as a float, entry by entry, is the firing function. -/
theorem fired_apply (C : FVec Ideal S8192x5 .f32) (h : S_.BroadcastsInDim S8192x5 (![] : Fin 0 → Fin S8192x5.rank)) (i : S8192x5.Idx) :
    uitofp (F := Ideal) .f32 (cmpf .oge (Host.divf (F := Ideal) C (broadcastInDim S8192x5 ![] h (constant (F := Ideal) S_ .f32 0x40000000#32)))
      (broadcastInDim S8192x5 ![] h (constant (F := Ideal) S_ .f32 0x3F4CCCCD#32))) i = Cert.Spec.fire (C i) := rfl

end Cert.ReferenceIdeal.Hand

end
-- ==== Proof.RefPayload.lean ====
/-
  What one grid point of the reference stores, read at an index.

  The point loads one sample as a row of 784 pixels, shaped [1, 1, 784], and the weights [8, 784]. It views the sample as [1, 784],
  repeats it over the eight weight rows, multiplies entry by entry, and adds each row up: a vector of eight inner products.
  That vector is laid out as a column [8, 1], repeated along 128 lanes to [8, 128], and given a leading unit axis. So the stored
  block [1, 8, 128] holds, at (0, j, l) for every lane l, the inner product of weight row j with the sample:
  the sum over k of w(j, k) * pixel(k).
-/
import proofs.«164304_g2000104130142098_pallasbulk_149_22_alg».proof.Proof.Gen.ReferenceIdeal.Skeleton
import proofs.«164304_g2000104130142098_pallasbulk_149_22_alg».proof.Proof.LibColumnLayout
import Idealize.ShloMosaic.Lib.Pipeline.Value

noncomputable section

namespace Cert.ReferenceIdeal.Hand

open Idealize.ShloMosaic Idealize.ShloMosaic.ValueIdx
open Cert.ReferenceIdeal Cert.LibColumnLayout

/-- The sample's row viewed [1, 784] and repeated over the eight weight rows: entry (j, k) is pixel k of the sample. -/
theorem sample_rows (v0 : Vec Ideal S1x1x784 .f32) (hc : S1x1x784.ShapeCasts S1x784) (hb : S1x784.Broadcasts S8x784)
    (j : Fin 8) (k : Fin 784) :
    broadcastTo S8x784 (shapeCast S1x784 v0 hc) hb (ix2 j k) = v0 (ix3 (0 : Fin 1) (0 : Fin 1) k) := by
  refine (broadcastTo_apply _ hb (ix2 j k) (ix2 (0 : Fin 1) k) fun a => ?_).trans ?_
  · match a with
    | ⟨0, _⟩ => rfl
    | ⟨1, _⟩ => rfl
  · refine shapeCast_apply v0 hc (ix2 (0 : Fin 1) k) (ix3 (0 : Fin 1) (0 : Fin 1) k) ?_
    rw [Shape.rowMajor_val_three, Shape.rowMajor_val_two]
    show (0 * 1 + 0) * 784 + k.val = 0 * 784 + k.val
    omega

/-- The block a point stores, at (u, j, l): the inner product of weight row j with the sample, the same on every lane l. -/
theorem stored_apply (v0 : Vec Ideal S1x1x784 .f32) (v2 : Vec Ideal S8x784 .f32) (u : Fin 1) (j : Fin 8) (l : Fin 128) :
    Gen.k0_pay1 (F := Ideal) v0 v2 (ix3 u j l) = ∑ k : Fin 784, v2 (ix2 j k) * v0 (ix3 (0 : Fin 1) (0 : Fin 1) k) := by
  unfold Gen.k0_pay1
  refine (shapeCast_apply _ _ (ix3 u j l) (ix2 j l) ?_).trans ?_
  · have hu : u.val = 0 := by omega
    rw [Shape.rowMajor_val_two, Shape.rowMajor_val_three]
    show j.val * 128 + l.val = (u.val * 8 + j.val) * 128 + l.val
    rw [hu]; omega
  refine (broadcastTo_a1_ab_apply _ _ j l).trans ?_
  refine (congrFun (shapeCast_self _ _) (ix2 j (0 : Fin 1))).trans ?_
  refine (shapeCast_a_a1_apply _ _ j (0 : Fin 1)).trans ?_
  refine (multiReduction_add_rows_apply _ _ _ _ _ j).trans ?_
  refine Finset.sum_congr rfl fun k _ => ?_
  exact congrArg (v2 (ix2 j k) * ·) (sample_rows v0 _ _ j k)

end Cert.ReferenceIdeal.Hand

end
-- ==== Proof.RefBlocks.lean ====
/-
  The reference's region: what each grid point writes back, and the array of inner products after the region.

  The grid is a line of 8192 points. Point t reads block (t, 0, 0) of the reshaped images, which is sample t's row of 784 pixels, and
  the whole weight array, and writes block (t, 0, 0) of the array [8192, 8, 128]. What it writes is the restriction to that block of
  ONE function of the whole array's index: entry (b, j, l) is the current of neuron j on sample b, whatever the lane l. The blocks
  of the 8192 points tile the array (index (b, j, l) lies in point b's block), so after the region the array is that function.
-/
import proofs.«164304_g2000104130142098_pallasbulk_149_22_alg».proof.Proof.Gen.ReferenceIdeal.Frame
import proofs.«164304_g2000104130142098_pallasbulk_149_22_alg».proof.Proof.Spec
import proofs.«164304_g2000104130142098_pallasbulk_149_22_alg».proof.Proof.RefPayload
import proofs.«164304_g2000104130142098_pallasbulk_149_22_alg».proof.Proof.RefHost
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The grid and the index maps -/

/-- The grid has 8192 points. -/
theorem point_lt (t : Fin cfg0.N) : t.val < 8192 := lt_of_lt_of_eq t.isLt (show cfg0.N = 8192 from N_0)

/-- It is a line: point t has coordinate t. -/
theorem coord_val (t : Fin cfg0.N) : (grid0.coords t 0).val = t.val := by
  show t.val / grid0.stride 0 % 8192 = t.val
  rw [show grid0.stride 0 = 1 from by decide, Nat.div_one, Nat.mod_eq_of_lt (point_lt t)]

/-- The coordinate as a 32-bit word reads back as t. -/
theorem word_val (t : Fin cfg0.N) : (BitVec.ofNat 32 (grid0.coords t 0).val).toNat = t.val := by
  rw [coord_val, BitVec.toNat_ofNat]
  exact Nat.mod_eq_of_lt (by have := point_lt t; omega)

/-- The sample window's block index at point t is (t, 0, 0). -/
theorem index_sample (t : Fin cfg0.N) :
    win0_0.index t (0 : Fin 3) = t.val ∧ win0_0.index t (1 : Fin 3) = 0 ∧ win0_0.index t (2 : Fin 3) = 0 :=
  ⟨word_val t, rfl, rfl⟩

/-- The weight window's block index is (0, 0) at every point. -/
theorem index_weights (t : Fin cfg0.N) : win0_1.index t (0 : Fin 2) = 0 ∧ win0_1.index t (1 : Fin 2) = 0 := ⟨rfl, rfl⟩

/-- The output window's block index at point t is (t, 0, 0). -/
theorem index_out (t : Fin cfg0.N) :
    win0_2.index t (0 : Fin 3) = t.val ∧ win0_2.index t (1 : Fin 3) = 0 ∧ win0_2.index t (2 : Fin 3) = 0 :=
  ⟨word_val t, rfl, rfl⟩

/-! ## The input blocks -/

/-- The region finds the reshaped images in the sample window's array. -/
theorem entry_sample (c : Dev nD) :
    (V m c main_call0_v0 : S8192x1x784.Idx → EReal)
      = shapeCast S8192x1x784 (m ((c : Thread nD τ).loc main_arg0) : S8192x28x28.Idx → EReal) Facts₀.shapeCasts_S8192x28x28_S8192x1x784 := by
  show StableHlo.after hostOps0 (fun b => m (c, b)) (Proc.devRef .tc main_call0_v0) = _
  after_results
  rfl

/-- The sample window's block at point t is sample t's row of pixels. -/
theorem sample_block (c : Dev nD) (t : Fin cfg0.N) (k : Fin 784) :
    (iblk m c 0 t : Vec Ideal S1x1x784 .f32) (ix3 (0 : Fin 1) (0 : Fin 1) k)
      = Cert.Spec.pix (m ((c : Thread nD τ).loc main_arg0)) ⟨t.val, point_lt t⟩ k := by
  obtain ⟨e0, e1, e2⟩ := index_sample t
  unfold iblk
  rw [View.read_apply]
  show V m c main_call0_v0 (((cfg0.win 0).blk t).view.emb (ix3 (0 : Fin 1) (0 : Fin 1) k)) = _
  rw [entry_sample]
  refine Eq.trans (congrArg _ ?_) (rows_apply _ _ ⟨t.val, point_lt t⟩ (0 : Fin 1) k)
  funext a; apply Fin.ext
  match a with
  | ⟨0, _⟩ => show win0_0.index t (0 : Fin 3) * 1 + 1 * 0 = t.val; rw [e0]; omega
  | ⟨1, _⟩ => show win0_0.index t (1 : Fin 3) * 1 + 1 * 0 = 0; rw [e1]
  | ⟨2, _⟩ => show win0_0.index t (2 : Fin 3) * 784 + 1 * k.val = k.val; rw [e2]; omega

/-- The weight window's block at every point is the weight array. -/
theorem weights_block (c : Dev nD) (t : Fin cfg0.N) (j : Fin 8) (k : Fin 784) :
    (iblk m c 1 t : Vec Ideal S8x784 .f32) (ix2 j k) = (m ((c : Thread nD τ).loc main_arg1) : S8x784.Idx → EReal) (ix2 j k) := by
  obtain ⟨e0, e1⟩ := index_weights t
  unfold iblk
  rw [View.read_apply]
  show V m c main_arg1 (((cfg0.win 1).blk t).view.emb (ix2 j k)) = _
  rw [V_main_arg1]
  refine congrArg _ ?_
  funext a; apply Fin.ext
  match a with
  | ⟨0, _⟩ => show win0_1.index t (0 : Fin 2) * 8 + 1 * j.val = j.val; rw [e0]; omega
  | ⟨1, _⟩ => show win0_1.index t (1 : Fin 2) * 784 + 1 * k.val = k.val; rw [e1]; omega

/-! ## What a point writes back -/

/-- The array of inner products: entry (b, j, l) is the current of neuron j on sample b, on every lane l. -/
def currents (X : S8192x28x28.Idx → EReal) (W : S8x784.Idx → EReal) : S8192x8x128.Idx → EReal :=
  fun i => Cert.Spec.cur X W (i 0) (i 1)

/-- A point that holds sample b's pixels and the weights stores, at (u, j, l), the current of neuron j on sample b. -/
theorem point_stores (x0 : Vec Ideal S1x1x784 .f32) (x1 : Vec Ideal S8x784 .f32) (X : S8192x28x28.Idx → EReal) (W : S8x784.Idx → EReal)
    (b : Fin 8192) (h0 : ∀ k : Fin 784, x0 (ix3 (0 : Fin 1) (0 : Fin 1) k) = Cert.Spec.pix X b k)
    (h1 : ∀ (j : Fin 8) (k : Fin 784), x1 (ix2 j k) = W (ix2 j k)) (u : Fin 1) (j : Fin 8) (l : Fin 128) :
    k0_pay1 (F := Ideal) x0 x1 (ix3 u j l) = Cert.Spec.cur X W b j :=
  (stored_apply x0 x1 u j l).trans
    ((Finset.sum_congr rfl fun k _ => by rw [h0 k, h1 j k]).trans (Cert.Spec.cur_comm X W b j))

/-- So its stored block, at y, is the array of inner products at any index on row b whose second coordinate is y's. -/
theorem point_block (x0 : Vec Ideal S1x1x784 .f32) (x1 : Vec Ideal S8x784 .f32) (X : S8192x28x28.Idx → EReal) (W : S8x784.Idx → EReal)
    (b : Fin 8192) (h0 : ∀ k : Fin 784, x0 (ix3 (0 : Fin 1) (0 : Fin 1) k) = Cert.Spec.pix X b k)
    (h1 : ∀ (j : Fin 8) (k : Fin 784), x1 (ix2 j k) = W (ix2 j k)) (y : S1x8x128.Idx) (i : S8192x8x128.Idx)
    (hi0 : (i 0).val = b.val) (hi1 : (i 1).val = (y 1).val) :
    k0_pay1 (F := Ideal) x0 x1 y = currents X W i := by
  obtain ⟨u, j, l, rfl⟩ : ∃ (u : Fin 1) (j : Fin 8) (l : Fin 128), y = ix3 u j l := ⟨y 0, y 1, y 2, eq_ix3 y⟩
  have eb : (i 0 : Fin 8192) = b := Fin.ext hi0
  have ej : (i 1 : Fin 8) = j := Fin.ext hi1
  exact (point_stores x0 x1 X W b h0 h1 u j l).trans (congrArg₂ (Cert.Spec.cur X W) eb ej).symm

/-- What point t writes back is block t of the array of inner products. -/
theorem flushed_eq (c : Dev nD) (t : Fin cfg0.N) :
    (dats m 0 c).flushed 2 t = ((cfg0.win 2).blk t).view.read (Elt Ideal)
      (currents (m ((c : Thread nD τ).loc main_arg0)) (m ((c : Thread nD τ).loc main_arg1))) := by
  obtain ⟨e0, e1, e2⟩ := index_out t
  show (cfg0.win 2).cut (grid0.coords t) ((dats m 0 c).after 2 t) = _
  rw [after0_2]
  unfold out0_2
  rw [View.canon_unit_zero zeros3]
  simp only [View.ld_unit_zero (S := S1x1x784) zeros3, View.ld_unit_zero (S := S8x784) zeros2]
  funext y
  rw [View.read_apply]
  show k0_pay1 (F := Ideal) (iblk m c 0 t) (iblk m c 1 t) ((cfg0.win 2).xinj (grid0.coords t) y)
    = currents (m ((c : Thread nD τ).loc main_arg0)) (m ((c : Thread nD τ).loc main_arg1)) (((cfg0.win 2).blk t).view.emb y)
  have hy0 : (y 0).val < 1 := (y 0).isLt
  refine point_block (iblk m c 0 t) (iblk m c 1 t) (m ((c : Thread nD τ).loc main_arg0)) (m ((c : Thread nD τ).loc main_arg1))
    ⟨t.val, point_lt t⟩ (sample_block m c t) (weights_block m c t) ((cfg0.win 2).xinj (grid0.coords t) y)
    (((cfg0.win 2).blk t).view.emb y) ?_ ?_
  · show win0_2.index t (0 : Fin 3) * 1 + 1 * (y 0).val = t.val
    rw [e0]; omega
  · show win0_2.index t (1 : Fin 3) * 8 + 1 * (y 1).val = (y 1).val
    rw [e1]; omega

/-! ## The array after the region -/

/-- An index of the array is in point t's block iff each coordinate is in the block's range on its axis. -/
theorem mem_block (t : Fin cfg0.N) (i : S8192x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_call0_v1).slice (win0_2.rect t)).set ↔ _
  rw [View.set_slice_whole, Rect.mem_set_unit]
  exact Iff.rfl

/-- Index (b, j, l) lies in the block point b writes back. -/
theorem covered (i : S8192x8x128.Idx) :
    ∃ t : Fin cfg0.N, (cfg0.win 2).flush t = true ∧ i ∈ ((cfg0.win 2).blk t).view.set := by
  have h0 : (i 0).val < 8192 := (i 0).isLt
  have h1 : (i 1).val < 8 := (i 1).isLt
  have h2 : (i 2).val < 128 := (i 2).isLt
  let t : Fin cfg0.N := ⟨(i 0).val, by rw [show cfg0.N = 8192 from N_0]; exact h0⟩
  obtain ⟨e0, e1, e2⟩ := index_out t
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    rw [e0]; show (i 0).val * 1 ≤ (i 0).val ∧ (i 0).val < (i 0).val * 1 + 1; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 128 ≤ (i 2).val ∧ (i 2).val < win0_2.index t (2 : Fin 3) * 128 + 128
    rw [e2]; omega

/-- After the region the output array is the array of inner products. -/
theorem region_array (c : Dev nD) :
    (dats m 0 c).arrAt 2 cfg0.N = currents (m ((c : Thread nD τ).loc main_arg0)) (m ((c : Thread nD τ).loc main_arg1)) :=
  (dats m 0 c).arrAt_eq_of_cover 2 _ (fun t _ => flushed_eq m c t) covered

end Cert.ReferenceIdeal.Hand

end
-- ==== Proof.RefRun.lean ====
/-
  The reference's run, read: its two results are the specification's arrays.

  After the region the array [8192, 8, 128] holds, at (b, j, l), the current of neuron j on sample b. The host operations that
  follow keep the first five neurons and the first lane: the second result is the array of currents [8192, 5]. The first result
  applies the firing function to it entry by entry. Neither argument array is written.
-/
import proofs.«164304_g2000104130142098_pallasbulk_149_22_alg».proof.Proof.Gen.ReferenceIdeal.Frame
import proofs.«164304_g2000104130142098_pallasbulk_149_22_alg».proof.Proof.Spec
import proofs.«164304_g2000104130142098_pallasbulk_149_22_alg».proof.Proof.RefHost
import proofs.«164304_g2000104130142098_pallasbulk_149_22_alg».proof.Proof.RefBlocks
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

/-- The first five rows and first lane of what the region leaves in its output array: the specification's currents. -/
theorem kept_currents (c : Dev nD) :
    shapeCast S8192x5 (extractStridedSlice S8192x5x1 ![0, 0, 0]
        (Pipeline.withArrays spec0 c (V0 m c) (fun w => (dats m 0 c).arrAt w cfg0.N) (Proc.devRef .tc main_call0_v1) : S8192x8x128.Idx → EReal)
        Facts₀.slices_S8192x8x128_S8192x5x1_0_0_0) Facts₀.shapeCasts_S8192x5x1_S8192x5
      = Cert.Spec.curArr (m ((c : Thread nD τ).loc main_arg0)) (m ((c : Thread nD τ).loc main_arg1)) := by
  rw [show (Pipeline.withArrays spec0 c (V0 m c) (fun w => (dats m 0 c).arrAt w cfg0.N) (Proc.devRef .tc main_call0_v1) : S8192x8x128.Idx → EReal)
      = currents (m ((c : Thread nD τ).loc main_arg0)) (m ((c : Thread nD τ).loc main_arg1)) from
    (Pipeline.withArrays_arr spec0 launch0.win.arr_inj c _ _ 2).trans (region_array m c)]
  funext i
  obtain ⟨b, j, rfl⟩ : ∃ (b : Fin 8192) (j : Fin 5), i = ix2 b j := ⟨i 0, i 1, eq_ix2 i⟩
  exact firstLane_apply _ _ _ b j

/-- The second result after the host tail is the specification's currents. -/
theorem tail_currents (c : Dev nD) :
    (Pipeline.afterTail₀ cfgs (dats m) 0 (V0 m) [hostOps1] c main_v0_1 : S8192x5.Idx → EReal)
      = Cert.Spec.curArr (m ((c : Thread nD τ).loc main_arg0)) (m ((c : Thread nD τ).loc main_arg1)) := by
  unfold Pipeline.afterTail₀
  show StableHlo.after hostOps1 _ (Proc.devRef .tc main_v0_1) = _
  after_results
  exact kept_currents m c

/-- The first result after the host tail is the specification's firing. -/
theorem tail_spikes (c : Dev nD) :
    (Pipeline.afterTail₀ cfgs (dats m) 0 (V0 m) [hostOps1] c main_v0_0 : S8192x5.Idx → EReal)
      = Cert.Spec.spkArr (m ((c : Thread nD τ).loc main_arg0)) (m ((c : Thread nD τ).loc main_arg1)) := by
  unfold Pipeline.afterTail₀
  show StableHlo.after hostOps1 _ (Proc.devRef .tc main_v0_0) = _
  after_results
  funext i
  refine (fired_apply _ Facts₀.bcast_S_S8192x5 i).trans ?_
  exact congrArg Cert.Spec.fire (congrFun (kept_currents m c) i)

/-- The run, read: the two results at the specification's arrays, the arguments unchanged. -/
theorem run : θ_run (Cert.ReferenceIdeal.defs (F := Ideal)) (onTc (τ := τ) (main (F := Ideal))) ⟨m, fun _ => 0, ρ⟩ fun r => ∀ c : Dev nD,
      r.2.mem ((c.tc : Thread nD τ).loc main_v0_0) = Cert.Spec.spkArr (m ((c.tc : Thread nD τ).loc main_arg0)) (m ((c.tc : Thread nD τ).loc main_arg1))
    ∧ r.2.mem ((c.tc : Thread nD τ).loc main_v0_1) = Cert.Spec.curArr (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans (tail_spikes m c),
     ((h c).2 main_v0_1 (Pipeline.mem_restRefs_of main_v0_1 (by decide) (by decide))).trans (tail_currents m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.ReferenceIdeal.Hand

end
-- ==== Proof.lean ====
/-
  The two programs compute the same currents and the same firing, on the extended reals.

  Both take 8192 images `x` of 28 x 28 pixels and eight rows of 784 weights `w` (three of them padding) and return, for each
  sample `b` and each of five neurons `j`, the current `cur(b, j) = ∑ k, pixel(b, k) · w(j, k)` — the image read row by row as
  784 pixels — and whether it fires, `cur / 2 ≥ 0.8`, as `1` or `0` (Proof/Spec.lean).

  The kernel's program flattens and transposes the images, hands column blocks of 2048 samples to four grid points, each of
  which forms the five inner products by multiplying a weight row, taken as a column, into its block and summing down the 784
  pixel rows, stacks them over three rows of zeros, and derives the firing from that stack; afterwards the padding rows are cut
  off and the two arrays transposed back (Proof/KPayload.lean, KBlocks.lean, KHost.lean). The reference hands one sample to each
  of 8192 grid points, which multiplies it into all eight weight rows and sums along each row, spreading the eight sums over
  128 lanes; afterwards the first five rows and first lane are kept and the firing is derived on the host
  (Proof/RefPayload.lean, RefHost.lean, RefBlocks.lean, RefRun.lean). The two sums run over the same 784 products, written
  pixel-first in one program and weight-first in the other: products commute. The two firings read the comparison's bit
  through a signed 32-bit integer and unsigned: the same number. No finiteness of the inputs is needed for either.

  Each program's frame is its generated frame; the ideal pass rewrote nothing, so the kernel's idealization is its own text.
-/
import proofs.«164304_g2000104130142098_pallasbulk_149_22_alg».proof.Defs
import proofs.«164304_g2000104130142098_pallasbulk_149_22_alg».proof.Proof.Gen.Kernel
import proofs.«164304_g2000104130142098_pallasbulk_149_22_alg».proof.Proof.Gen.Kernel.Frame
import proofs.«164304_g2000104130142098_pallasbulk_149_22_alg».proof.Proof.Gen.KernelIdeal
import proofs.«164304_g2000104130142098_pallasbulk_149_22_alg».proof.Proof.Gen.KernelIdeal.Frame
import proofs.«164304_g2000104130142098_pallasbulk_149_22_alg».proof.Proof.Gen.ReferenceIdeal
import proofs.«164304_g2000104130142098_pallasbulk_149_22_alg».proof.Proof.Gen.ReferenceIdeal.Frame
import proofs.«164304_g2000104130142098_pallasbulk_149_22_alg».proof.Proof.Gen.Pre_finite_inputs
import proofs.«164304_g2000104130142098_pallasbulk_149_22_alg».proof.Proof.KHost
import proofs.«164304_g2000104130142098_pallasbulk_149_22_alg».proof.Proof.RefRun

noncomputable section

namespace Cert.Proof

open Idealize.ShloMosaic Idealize.SL.Sem

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the images and the weights both programs end with the specification's firing and currents
    of those arguments: the kernel's run and the reference's run state the same two arrays. -/
theorem algebraic : Cert.algebraic_KernelIdeal_ReferenceIdeal := by
  intro m ρ m' ρ' _ hagree
  refine ⟨fun c => Cert.Spec.spkArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.curArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ?_) (Cert.ReferenceIdeal.Hand.run m' ρ')
  obtain ⟨h0, h1, h2, h3⟩ := h c
  rw [(hagree c).1, (hagree c).2] at h0 h1
  exact ⟨h0, h1, h2, h3⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
